-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S10000x128 .f32) (main_arg1 : IVec S640000 32) (main_arg2 : IVec S640000 32) (main_arg3 : FVec F S128x128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S1000x128 : Shape := ⟨2, ![1000, 128]⟩

abbrev nBuf : Space → Nat
  | .hbm => 20
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .f32⟩
  | .hbm, ⟨15, _⟩ => ⟨S10000x128, .f32⟩
  | .hbm, ⟨16, _⟩ => ⟨S640000x1, .i32⟩
  | .hbm, ⟨17, _⟩ => ⟨S10000x128, .f32⟩
  | .hbm, ⟨18, _⟩ => ⟨S1x128, .f32⟩
  | .hbm, ⟨19, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1x128, .f32⟩
  | .local _ .vmem, ⟨4, _⟩ => ⟨S1000x128, .f32⟩
  | .local _ .vmem, ⟨5, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S10000x128.size a
  hwx0_3 : ∀ i : grid0.Coords, EltTy.bits .f32 = 32 ∨ (Rect.block (s := S10000x128) S1000x128.size (cc0_transform_3 i) (hinb0_3 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_v9) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 25
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .f32⟩
  | .hbm, ⟨15, _⟩ => ⟨S10000x128, .f32⟩
  | .hbm, ⟨16, _⟩ => ⟨S640000x1, .i32⟩
  | .hbm, ⟨17, _⟩ => ⟨S10000x128, .f32⟩
  | .hbm, ⟨18, _⟩ => ⟨S10000x128, .f32⟩
  | .hbm, ⟨19, _⟩ => ⟨S1x128, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S10000x128, .f32⟩
  | .hbm, ⟨24, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x128_S10000x128_1_0_0_1_n_n_wf : DotDims.WF S10000x128 S128x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Spec.lean ====
/-
  The layer's dense stage as one function on whole arrays.

  After the edge aggregation has produced the node features `h` (one row of 128 features per node), both
  programs compute, for node `r` and output feature `c`,

      out[r, c] = max (∑ k, h[r, k] · W[k, c] + b[c]) 0

  on the extended reals: a 128-term inner product of a row of `h` with a column of `W`, the bias of that
  column added, and the result clipped below at zero.  The sum is a finite sum in a commutative monoid, so the
  order in which either program accumulates it, and how the rows are tiled, cannot matter.
-/
import Idealize.ShloMosaic.PureOps.Ideal
import Idealize.ShloMosaic.PureOps.Ideal.Laws
import Idealize.ShloMosaic.Lib.ValueIdx

noncomputable section

open scoped BigOperators

namespace Cert.GcnLayer

open Idealize.ShloMosaic Idealize.ShloMosaic.ValueIdx

/-- The dense stage, index by index: the row-by-column inner product, plus the column's bias, clipped at the
    value of the zero word (which is the extended real `0`). -/
def linearRelu (h : (⟨2, ![10000, 128]⟩ : Shape).Idx → EReal) (W : (⟨2, ![128, 128]⟩ : Shape).Idx → EReal)
    (b : (⟨1, ![128]⟩ : Shape).Idx → EReal) : (⟨2, ![10000, 128]⟩ : Shape).Idx → EReal :=
  fun i => max ((∑ k : Fin 128, h (ix2 (i 0) k) * W (ix2 k (i 1))) + b (ix1 (i 1))) (Ideal.ofBits .f32 0x00000000#32)

/-- The same, read at explicit coordinates. -/
theorem linearRelu_apply (h : (⟨2, ![10000, 128]⟩ : Shape).Idx → EReal) (W : (⟨2, ![128, 128]⟩ : Shape).Idx → EReal)
    (b : (⟨1, ![128]⟩ : Shape).Idx → EReal) (r : Fin 10000) (c : Fin 128) :
    linearRelu h W b (ix2 r c)
      = max ((∑ k : Fin 128, h (ix2 r k) * W (ix2 k c)) + b (ix1 c)) (Ideal.ofBits .f32 0x00000000#32) := rfl

end Cert.GcnLayer

end
-- ==== Proof.RefValue.lean ====
/-
  The reference program computes the dense stage of `Spec.lean` on the aggregated node features.

  Its last operations are a `dot_general` contracting the feature axis of the aggregated array with the row
  axis of `W`, the bias broadcast along the node axis and added, and a maximum with a zero array.  Read at an
  output index (r, c) the contraction is the sum over k of h[r, k] · W[k, c], the broadcast bias is b[c], and the
  zero array is the zero word's value: exactly `linearRelu` at (r, c).  The aggregated array `h` itself (the
  gather along the edges' sources and the scatter-add onto their destinations) is kept as the opaque stage
  `val_main_v9`: both programs build it by the same operations, so it is never opened.
-/
import proofs.«158383_j75033078661648_2_alg».proof.Proof.Gen.ReferenceIdeal.Read
import proofs.«158383_j75033078661648_2_alg».proof.Proof.Spec

noncomputable section

open scoped BigOperators

namespace Cert.ReferenceIdeal.RefValue

open Cert.ReferenceIdeal Cert.ReferenceIdeal.Read Idealize.ShloMosaic Idealize.ShloMosaic.ValueIdx

/-- The left operand of the contraction is read at (row of the output index, k). -/
theorem lidx_eq (i : S10000x128.Idx) (k : Fin 128) : lidx_main_v10 i k = ix2 (i 0) k :=
  funext fun a => Fin.ext (by match a with | ⟨0, _⟩ => rfl | ⟨1, _⟩ => rfl)

/-- The right operand of the contraction is read at (k, column of the output index). -/
theorem ridx_eq (i : S10000x128.Idx) (k : Fin 128) : ridx_main_v10 i k = ix2 k (i 1) :=
  funext fun a => Fin.ext (by match a with | ⟨0, _⟩ => rfl | ⟨1, _⟩ => rfl)

/-- The bias, broadcast first to one row and then along the nodes, is read at the output index's column. -/
theorem bidx_eq (i : S10000x128.Idx) : idx_main_v11 (idx_main_v12 i) = ix1 (i 1) :=
  funext fun a => Fin.ext (by match a with | ⟨0, _⟩ => rfl)

/-- The reference's result stage is the dense stage applied to its aggregated node features. -/
theorem reference_eq (x0 : (⟨S10000x128, .f32⟩ : BufTy).Contents (Elt Ideal)) (x1 x2 : (⟨S640000, .i32⟩ : BufTy).Contents (Elt Ideal))
    (x3 : (⟨S128x128, .f32⟩ : BufTy).Contents (Elt Ideal)) (x4 : (⟨S128, .f32⟩ : BufTy).Contents (Elt Ideal)) :
    val_main_v14 (F := Ideal) x0 x1 x2 x3 x4
      = Cert.GcnLayer.linearRelu (val_main_v9 (F := Ideal) x0 x1 x2) x3 x4 := by
  funext i
  rw [val_main_v14_apply, val_main_v13_apply, val_main_v10_apply, val_main_v12_apply, val_main_v11_apply,
    val_main_call0_v0_apply, val_main_call0_cst_apply]
  simp only [lidx_eq, ridx_eq, bidx_eq]
  rfl

end Cert.ReferenceIdeal.RefValue

end
-- ==== Proof.KernelPayload.lean ====
/-
  What the kernel body stores for one block of 1000 nodes, read at one entry.

  The body loads a block `x0` of 1000 rows of the aggregated features, the whole weight matrix `x1` and the bias
  as a one-row array `x2`; it narrows the two matrix operands to bf16 (no change on the extended reals), multiplies
  them on the matrix unit into a zero accumulator, adds the bias row broadcast down the 1000 rows, and takes the
  maximum with a zero splat.  At row `p` of the block and column `q` that is

      max (∑ k, x0[p, k] · x1[k, q] + x2[0, q]) 0,

  the contraction index of the matrix product being the one shared axis of 128 features.
-/
import proofs.«158383_j75033078661648_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The left operand's row coordinate is the output row: axis 0 of the left operand is its free axis. -/
theorem lhs_row (i : S1000x128.Idx) (r : dot_S1000x128_S128x128_S1000x128_1_0_0_1_n_n.contr.Idx) :
    (dot_S1000x128_S128x128_S1000x128_1_0_0_1_n_n.lhsIdx i r 0).val = (i 0).val := by
  unfold DotDims.lhsIdx
  rw [dif_neg (show ¬(0 : Fin S1000x128.rank) ∈ dot_S1000x128_S128x128_S1000x128_1_0_0_1_n_n.lhsBatch by decide),
    dif_pos (show (0 : Fin S1000x128.rank) ∈ dot_S1000x128_S128x128_S1000x128_1_0_0_1_n_n.lhsNonContracting by decide)]
  rfl

/-- The right operand's column coordinate is the output column: axis 1 of the right operand is its free axis. -/
theorem rhs_col (i : S1000x128.Idx) (r : dot_S1000x128_S128x128_S1000x128_1_0_0_1_n_n.contr.Idx) :
    (dot_S1000x128_S128x128_S1000x128_1_0_0_1_n_n.rhsIdx i r 1).val = (i 1).val := by
  unfold DotDims.rhsIdx
  rw [dif_neg (show ¬(1 : Fin S128x128.rank) ∈ dot_S1000x128_S128x128_S1000x128_1_0_0_1_n_n.rhsBatch by decide),
    dif_pos (show (1 : Fin S128x128.rank) ∈ dot_S1000x128_S128x128_S1000x128_1_0_0_1_n_n.rhsNonContracting by decide)]
  rfl

/-- The block's matrix product into a zero accumulator, at (p, q): the inner product of row `p` of the left operand
    with column `q` of the right one, over the 128 shared features. -/
theorem block_matmul_apply (A : FVec Ideal S1000x128 .bf16) (B : FVec Ideal S128x128 .bf16) (p : Fin 1000) (q : Fin 128) :
    matmul dot_S1000x128_S128x128_S1000x128_1_0_0_1_n_n none A B (constant (F := Ideal) S1000x128 .f32 0x00000000#32) (ix2 p q)
      = ∑ k : Fin 128, A (ix2 p k) * B (ix2 k q) := by
  show FloatOps.matmul dot_S1000x128_S128x128_S1000x128_1_0_0_1_n_n none A B (constant (F := Ideal) S1000x128 .f32 0x00000000#32) (ix2 p q) = _
  rw [Ideal.matmul_constant_zero_apply, ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p q) ((contrEquiv1 dot_S1000x128_S128x128_S1000x128_1_0_0_1_n_n 128 rfl rfl).symm k) = ix2 p k :=
    funext fun a => Fin.ext (by
      match a with
      | ⟨0, _⟩ => exact lhs_row _ _
      | ⟨1, _⟩ => exact (dot_S1000x128_S128x128_S1000x128_1_0_0_1_n_n.lhsIdx_val_of_single rfl _ _).trans hk)
  have er : dot_S1000x128_S128x128_S1000x128_1_0_0_1_n_n.rhsIdx (ix2 p q) ((contrEquiv1 dot_S1000x128_S128x128_S1000x128_1_0_0_1_n_n 128 rfl rfl).symm k) = ix2 k q :=
    funext fun a => Fin.ext (by
      match a with
      | ⟨0, _⟩ => exact (dot_S1000x128_S128x128_S1000x128_1_0_0_1_n_n.rhsIdx_val_of_single rfl _ _).trans hk
      | ⟨1, _⟩ => exact rhs_col _ _)
  rw [el, er]

/-- The one-row bias broadcast down the block's rows, at (p, q): the row's entry in column `q`. -/
theorem bias_rows_apply (x2 : Vec Ideal S1x128 .f32) (h : S1x128.Broadcasts S1000x128) (p : Fin 1000) (q : Fin 128) :
    broadcastTo S1000x128 x2 h (ix2 p q) = x2 (ix2 0 q) :=
  broadcastTo_apply x2 h (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- What the body stores, at (p, q) of the block. -/
theorem payload_apply (x0 : Vec Ideal S1000x128 .f32) (x1 : Vec Ideal S128x128 .f32) (x2 : Vec Ideal S1x128 .f32)
    (p : Fin 1000) (q : Fin 128) :
    k0_pay1 (F := Ideal) x0 x1 x2 (ix2 p q)
      = max ((∑ k : Fin 128, x0 (ix2 p k) * x1 (ix2 k q)) + x2 (ix2 0 q)) (Ideal.ofBits .f32 0x00000000#32) := by
  unfold k0_pay1
  simp only [shapeCast_self, maximumf_apply, addf_apply, broadcast_apply]
  rw [block_matmul_apply, bias_rows_apply]
  rfl

end Cert.KernelIdeal.Hand

end
-- ==== Proof.KernelValue.lean ====
/-
  The kernel's result array as one function of the arguments.

  The grid has ten points; point t works on rows 1000 t … 1000 t + 999.  Its feature operand is the array of
  aggregated node features that the host operations before the launch leave (`aggregated`), its weight operand is
  the weight matrix, its bias operand the bias re-laid as one row.  What the body stores (KernelPayload.lean) is,
  entry by entry, the dense stage of Spec.lean read at the block's rows, so each point writes back a block of
  `linearRelu`; the blocks tile the array, hence the array after the run is `linearRelu` of the aggregated
  features, the weights and the bias.
-/
import proofs.«158383_j75033078661648_2_alg».proof.Proof.Gen.KernelIdeal.Value
import proofs.«158383_j75033078661648_2_alg».proof.Proof.KernelPayload
import proofs.«158383_j75033078661648_2_alg».proof.Proof.Spec
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx Idealize.ShloMosaic.StableHlo

variable (m : (ℓ : Loc nD τ sig) → Buf (Elt Ideal) ℓ) (ρ : Dev nD → PrngReg)

/-- The zero offsets of a whole-buffer access, as a constant function. -/
theorem hz : (![0, 0] : Fin 2 → Nat) = fun _ => 0 := funext fun a => by fin_cases a <;> rfl

/-- The aggregated node features as the kernel's host side builds them: every edge's source index, wrapped by the
    node count when negative, selects a row of the input features; the selected rows are added, edge by edge, into the
    row of a zero array that the edge's destination index names.  Entry (r, k) is the sum of x[src e, k] over the edges
    e whose destination is r.  The term is never opened: the reference builds the same one. -/
def aggregated (x0 : (⟨S10000x128, .f32⟩ : BufTy).Contents (Elt Ideal)) (x1 x2 : (⟨S640000, .i32⟩ : BufTy).Contents (Elt Ideal)) :
    (⟨S10000x128, .f32⟩ : BufTy).Contents (Elt Ideal) :=
  Host.scatterAdd (F := Ideal) scatter_S10000x128_S640000x1_S640000x128_1_0_0_1
    (broadcastInDim S10000x128 ![] bcast_S_S10000x128 (constant (F := Ideal) S_ .f32 0x00000000#32))
    (broadcastInDim S640000x1 ![0] bcast_S640000_S640000x1_0 x2)
    (Host.gather gather_S10000x128_S640000x1_S640000x128_1_0_n_n_0_1_1128 x0
      (broadcastInDim S640000x1 ![0] bcast_S640000_S640000x1_0
        (select (cmpi .slt x1 (broadcastInDim S640000 ![] bcast_S_S640000 (constantI S_ 32 0#32)))
          (addi x1 (broadcastInDim S640000 ![] bcast_S_S640000 (constantI S_ 32 10000#32))) x1)))

/-- When the kernel is launched, its first operand holds the aggregated node features of the three graph arguments. -/
theorem V_v9 (c : Dev nD) : (V m c main_v9 : (⟨S10000x128, .f32⟩ : BufTy).Contents (Elt Ideal))
    = aggregated (m ((c : Thread nD τ).loc main_arg0)) (m ((c : Thread nD τ).loc main_arg1)) (m ((c : Thread nD τ).loc main_arg2)) := by
  dsimp only [Gen.V, Gen.hostOps0]
  after_results
  rfl

/-- When the kernel is launched, its third operand holds the bias re-laid as a one-row array. -/
theorem V_v10 (c : Dev nD) : (V m c main_v10 : (⟨S1x128, .f32⟩ : BufTy).Contents (Elt Ideal))
    = shapeCast S1x128 (m ((c : Thread nD τ).loc main_arg4)) shapeCasts_S128_S1x128 := by
  dsimp only [Gen.V, Gen.hostOps0]
  after_results
  rfl

/-- The block index maps over the ten grid points: at point t the feature operand and the result are at block row t
    (block column 0), while the weight matrix and the bias row stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, k) of the feature block at point t is entry (1000 t + p, k) of the array. -/
theorem blk0_emb (t : Fin cfg0.N) (p : Fin 1000) (k : Fin 128) (r : Fin 10000) (hr : r.val = t.val * 1000 + p.val) :
    ((cfg0.win 0).blk t).view.emb (ix2 p k) = (ix2 r k : S10000x128.Idx) := by
  obtain ⟨e00, e01, -⟩ := idx_facts t
  funext a
  apply Fin.ext
  match a with
  | ⟨0, _⟩ => show win0_0.index t (0 : Fin 2) * 1000 + 1 * p.val = r.val; rw [e00, hr]; omega
  | ⟨1, _⟩ => show win0_0.index t (1 : Fin 2) * 128 + 1 * k.val = k.val; rw [e01]; omega

/-- The weight block is the whole weight matrix at every point. -/
theorem blk1_emb (t : Fin cfg0.N) (k q : Fin 128) :
    ((cfg0.win 1).blk t).view.emb (ix2 k q) = (ix2 k q : S128x128.Idx) := by
  obtain ⟨-, -, e10, e11, -⟩ := idx_facts t
  funext a
  apply Fin.ext
  match a with
  | ⟨0, _⟩ => show win0_1.index t (0 : Fin 2) * 128 + 1 * k.val = k.val; rw [e10]; omega
  | ⟨1, _⟩ => show win0_1.index t (1 : Fin 2) * 128 + 1 * q.val = q.val; rw [e11]; omega

/-- The bias block is the whole one-row bias array at every point. -/
theorem blk2_emb (t : Fin cfg0.N) (q : Fin 128) :
    ((cfg0.win 2).blk t).view.emb (ix2 0 q) = (ix2 0 q : S1x128.Idx) := by
  obtain ⟨-, -, -, -, e20, e21, -⟩ := idx_facts t
  funext a
  apply Fin.ext
  match a with
  | ⟨0, _⟩ => show win0_2.index t (0 : Fin 2) * 1 + 1 * 0 = 0; rw [e20]
  | ⟨1, _⟩ => show win0_2.index t (1 : Fin 2) * 128 + 1 * q.val = q.val; rw [e21]; omega

/-- Entry y of the result block at point t is entry (1000 t + y₀, y₁) of the result array. -/
theorem blk3_emb (t : Fin cfg0.N) (y : S1000x128.Idx) (i : S10000x128.Idx)
    (hi0 : (i 0).val = t.val * 1000 + (y 0).val) (hi1 : (i 1).val = (y 1).val) :
    ((cfg0.win 3).blk t).view.emb y = i := by
  obtain ⟨-, -, -, -, -, -, e30, e31⟩ := idx_facts t
  funext a
  apply Fin.ext
  match a with
  | ⟨0, _⟩ => show win0_3.index t (0 : Fin 2) * 1000 + 1 * (y 0).val = (i 0).val; rw [e30, hi0]; omega
  | ⟨1, _⟩ => show win0_3.index t (1 : Fin 2) * 128 + 1 * (y 1).val = (i 1).val; rw [e31, hi1]; omega

/-- So the feature block at point t of any array holds that array's rows 1000 t … 1000 t + 999. -/
theorem blk0_read (A : (⟨S10000x128, .f32⟩ : BufTy).Contents (Elt Ideal)) (t : Fin cfg0.N) (p : Fin 1000) (k : Fin 128) (r : Fin 10000)
    (hr : r.val = t.val * 1000 + p.val) :
    ((cfg0.win 0).blk t).view.read (Elt Ideal) A (ix2 p k) = A (ix2 r k) := by
  rw [View.read_apply, blk0_emb t p k r hr]; rfl

/-- The weight block of any array is that array. -/
theorem blk1_read (A : (⟨S128x128, .f32⟩ : BufTy).Contents (Elt Ideal)) (t : Fin cfg0.N) (k q : Fin 128) :
    ((cfg0.win 1).blk t).view.read (Elt Ideal) A (ix2 k q) = A (ix2 k q) := by
  rw [View.read_apply, blk1_emb t k q]; rfl

/-- The bias block of any one-row array is that array. -/
theorem blk2_read (A : (⟨S1x128, .f32⟩ : BufTy).Contents (Elt Ideal)) (t : Fin cfg0.N) (q : Fin 128) :
    ((cfg0.win 2).blk t).view.read (Elt Ideal) A (ix2 0 q) = A (ix2 0 q) := by
  rw [View.read_apply, blk2_emb t q]; rfl

/-- Reading any array through the result block at point t reads its rows 1000 t … 1000 t + 999. -/
theorem blk3_read (A : (⟨S10000x128, .f32⟩ : BufTy).Contents (Elt Ideal)) (t : Fin cfg0.N) (y : S1000x128.Idx) (i : S10000x128.Idx)
    (hi0 : (i 0).val = t.val * 1000 + (y 0).val) (hi1 : (i 1).val = (y 1).val) :
    ((cfg0.win 3).blk t).view.read (Elt Ideal) A y = A i := by
  rw [View.read_apply, blk3_emb t y i hi0 hi1]; rfl

/-- The body's first input at point t: rows 1000 t … 1000 t + 999 of the aggregated features. -/
theorem iblk0_apply (c : Dev nD) (t : Fin cfg0.N) (p : Fin 1000) (k : Fin 128) (r : Fin 10000) (hr : r.val = t.val * 1000 + p.val) :
    (iblk m c 0 t : Vec Ideal S1000x128 .f32) (ix2 p k) = (V m c main_v9 : S10000x128.Idx → EReal) (ix2 r k) := by
  unfold iblk
  exact blk0_read (V m c main_v9) t p k r hr

/-- The body's second input at every point: the weight matrix. -/
theorem iblk1_apply (c : Dev nD) (t : Fin cfg0.N) (k q : Fin 128) :
    (iblk m c 1 t : Vec Ideal S128x128 .f32) (ix2 k q) = (V m c main_arg3 : S128x128.Idx → EReal) (ix2 k q) := by
  unfold iblk
  exact blk1_read (V m c main_arg3) t k q

/-- The body's third input at every point: the one-row bias. -/
theorem iblk2_apply (c : Dev nD) (t : Fin cfg0.N) (q : Fin 128) :
    (iblk m c 2 t : Vec Ideal S1x128 .f32) (ix2 0 q) = (V m c main_v10 : S1x128.Idx → EReal) (ix2 0 q) := by
  unfold iblk
  exact blk2_read (V m c main_v10) t q

/-- One grid point, over arbitrary arrays: if the body's first input is the block of rows n·1000 … of `H`, its second
    input is `W` and its third is `b` as a row, then what it stores at y is the dense stage of (H, W, b) at the array
    index (n·1000 + y₀, y₁): the inner products run over the same 128 products, the bias entry is the same, and the
    clipping at zero is the same. -/
theorem point_eq (H : S10000x128.Idx → EReal) (W : S128x128.Idx → EReal) (b : S128.Idx → EReal)
    (x0 : Vec Ideal S1000x128 .f32) (x1 : Vec Ideal S128x128 .f32) (x2 : Vec Ideal S1x128 .f32) (n : Nat)
    (h0 : ∀ (p : Fin 1000) (k : Fin 128) (r : Fin 10000), r.val = n * 1000 + p.val → x0 (ix2 p k) = H (ix2 r k))
    (h1 : ∀ k q : Fin 128, x1 (ix2 k q) = W (ix2 k q))
    (h2 : ∀ q : Fin 128, x2 (ix2 0 q) = b (ix1 q))
    (y : S1000x128.Idx) (i : S10000x128.Idx) (hi0 : (i 0).val = n * 1000 + (y 0).val) (hi1 : (i 1).val = (y 1).val) :
    k0_pay1 (F := Ideal) x0 x1 x2 y = Cert.GcnLayer.linearRelu H W b i := by
  obtain ⟨p, q, rfl⟩ : ∃ (p : Fin 1000) (q : Fin 128), y = ix2 p q := ⟨y 0, y 1, eq_ix2 y⟩
  obtain ⟨r, c, rfl⟩ : ∃ (r : Fin 10000) (c : Fin 128), i = ix2 r c := ⟨i 0, i 1, eq_ix2 i⟩
  obtain rfl : c = q := Fin.ext hi1
  have hs : (∑ k : Fin 128, x0 (ix2 p k) * x1 (ix2 k c)) = ∑ k : Fin 128, H (ix2 r k) * W (ix2 k c) :=
    Finset.sum_congr rfl fun k _ => by rw [h0 p k r hi0, h1]
  rw [payload_apply, Cert.GcnLayer.linearRelu_apply, h2, hs]

/-- What point t writes back is block t of the dense stage of the arrays the kernel was launched on. -/
theorem flushed_eq (c : Dev nD) (t : Fin cfg0.N) :
    (dats m 0 c).flushed 3 t = ((cfg0.win 3).blk t).view.read (Elt Ideal)
      (Cert.GcnLayer.linearRelu (V m c main_v9) (V m c main_arg3) (fun i => V m c main_v10 (ix2 0 (i 0)))) := by
  rw [flushed3]
  unfold out0_3
  rw [View.canon_unit_zero hz]
  simp only [View.ld_unit_zero (S := S1000x128) hz, View.ld_unit_zero (S := S128x128) hz, View.ld_unit_zero (S := S1x128) hz]
  funext y
  have hN : cfg0.N = 10 := N_0
  have ht : t.val < cfg0.N := t.isLt
  have hy0 : (y 0).val < 1000 := (y 0).isLt
  obtain ⟨i, hi0, hi1⟩ : ∃ i : S10000x128.Idx, (i 0).val = t.val * 1000 + (y 0).val ∧ (i 1).val = (y 1).val :=
    ⟨ix2 ⟨t.val * 1000 + (y 0).val, by omega⟩ (y 1), rfl, rfl⟩
  refine Eq.trans ?_ (blk3_read _ t y i hi0 hi1).symm
  show k0_pay1 (F := Ideal) (iblk m c 0 t) (iblk m c 1 t) (iblk m c 2 t) y = _
  exact point_eq (V m c main_v9) (V m c main_arg3) (fun i => V m c main_v10 (ix2 0 (i 0))) (iblk m c 0 t) (iblk m c 1 t) (iblk m c 2 t) t.val
    (fun p k r hr => iblk0_apply m c t p k r hr) (fun k q => iblk1_apply m c t k q) (fun q => iblk2_apply m c t q) y i hi0 hi1

/-- An index of the result array lies in point t's block iff each coordinate lies in the block's range on its axis. -/
theorem mem_blk (t : Fin cfg0.N) (i : S10000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole main_v11).slice (win0_3.rect t)).set ↔ _
  rw [View.set_slice_whole, Rect.mem_set_unit]
  exact Iff.rfl

/-- The ten blocks of 1000 rows cover the 10000 rows: row r lies in the block of point r / 1000. -/
theorem cover (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 10 := N_0
  obtain ⟨t, ht⟩ : ∃ t : Fin cfg0.N, t.val = (i 0).val / 1000 := ⟨⟨(i 0).val / 1000, by rw [hN]; omega⟩, rfl⟩
  obtain ⟨-, -, -, -, -, -, e30, e31⟩ := idx_facts t
  refine ⟨t, flush0_3 t, ?_⟩
  rw [mem_blk]
  intro a
  match a with
  | ⟨0, _⟩ => show win0_3.index t (0 : Fin 2) * 1000 ≤ (i 0).val ∧ (i 0).val < win0_3.index t (0 : Fin 2) * 1000 + 1000; rw [e30, ht]; omega
  | ⟨1, _⟩ => show win0_3.index t (1 : Fin 2) * 128 ≤ (i 1).val ∧ (i 1).val < win0_3.index t (1 : Fin 2) * 128 + 128; rw [e31]; omega

/-- The one-row bias read at (0, q) is the bias vector at q: a re-laying keeps the row-major position. -/
theorem bias_eq (c : Dev nD) : (fun i : S128.Idx => (V m c main_v10 : S1x128.Idx → EReal) (ix2 0 (i 0))) = m ((c : Thread nD τ).loc main_arg4) := by
  funext i
  rw [V_v10]
  refine shapeCast_apply _ _ _ i ?_
  rw [Shape.rowMajor_val_one, Shape.rowMajor_val_two]
  show (i 0).val = 0 * 128 + (i 0).val
  omega

/-- After the last point the result array is the dense stage of the aggregated features, the weights and the bias. -/
theorem final (c : Dev nD) : (dats m 0 c).arrAt 3 cfg0.N
    = Cert.GcnLayer.linearRelu (aggregated (m ((c : Thread nD τ).loc main_arg0)) (m ((c : Thread nD τ).loc main_arg1)) (m ((c : Thread nD τ).loc main_arg2)))
        (m ((c : Thread nD τ).loc main_arg3)) (m ((c : Thread nD τ).loc main_arg4)) := by
  rw [(dats m 0 c).arrAt_eq_of_cover 3 _ (fun t _ => flushed_eq m c t) cover, V_v9, V_main_arg3, bias_eq]

/-- Every run of the idealized kernel ends with the result array at the dense stage of the aggregated features and the
    five arguments unchanged. -/
theorem run : θ_run defs (onTc (τ := τ) (main (F := Ideal))) ⟨m, fun _ => 0, ρ⟩ fun r => ∀ c : Dev nD,
      r.2.mem ((c : Thread nD τ).loc main_v11)
        = Cert.GcnLayer.linearRelu (aggregated (m ((c : Thread nD τ).loc main_arg0)) (m ((c : Thread nD τ).loc main_arg1)) (m ((c : Thread nD τ).loc main_arg2)))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Hand

end
-- ==== Proof.lean ====
/-
  A graph-convolution layer: the node features are summed along the edges (for each edge the source node's row is
  gathered and added into the destination node's row), and the aggregated features `h` then go through a dense
  stage, out[r, c] = max (∑ k, h[r, k] · W[k, c] + b[c]) 0.

  Both programs build `h` by the same host operations (an index wrap-around, a row gather, a scatter-add into
  zeros), so `h` is carried as one unopened term.  They differ only in the dense stage: the kernel runs it block by
  block, 1000 nodes at a time, as a bf16 matrix product into a zero accumulator plus a broadcast bias row, while the
  reference runs one whole contraction, a broadcast and a maximum on the host.  On the extended reals narrowing to
  bf16 is the identity, a matrix product into zero is the plain sum of products, and the ten blocks of 1000 rows tile
  the 10000 nodes, so both result arrays are `linearRelu h W b` (Spec.lean).  No finiteness of the inputs is needed:
  the two sides are the same sums of the same products.
-/
import proofs.«158383_j75033078661648_2_alg».proof.Defs
import proofs.«158383_j75033078661648_2_alg».proof.Proof.Gen.Kernel
import proofs.«158383_j75033078661648_2_alg».proof.Proof.Gen.Kernel.Skeleton
import proofs.«158383_j75033078661648_2_alg».proof.Proof.Gen.Kernel.Launch
import proofs.«158383_j75033078661648_2_alg».proof.Proof.Gen.Kernel.Points
import proofs.«158383_j75033078661648_2_alg».proof.Proof.Gen.Kernel.Frame
import proofs.«158383_j75033078661648_2_alg».proof.Proof.Gen.KernelIdeal
import proofs.«158383_j75033078661648_2_alg».proof.Proof.Gen.KernelIdeal.Skeleton
import proofs.«158383_j75033078661648_2_alg».proof.Proof.Gen.KernelIdeal.Launch
import proofs.«158383_j75033078661648_2_alg».proof.Proof.Gen.KernelIdeal.Points
import proofs.«158383_j75033078661648_2_alg».proof.Proof.Gen.KernelIdeal.Frame
import proofs.«158383_j75033078661648_2_alg».proof.Proof.Gen.ReferenceIdeal
import proofs.«158383_j75033078661648_2_alg».proof.Proof.Gen.Pre_finite_inputs
import proofs.«158383_j75033078661648_2_alg».proof.Proof.Gen.KernelIdeal.Value
import proofs.«158383_j75033078661648_2_alg».proof.Proof.Gen.ReferenceIdeal.Run
import proofs.«158383_j75033078661648_2_alg».proof.Proof.Gen.ReferenceIdeal.Read
import proofs.«158383_j75033078661648_2_alg».proof.Proof.RefValue
import proofs.«158383_j75033078661648_2_alg».proof.Proof.KernelValue
import Idealize.ShloMosaic.Adequacy
import Idealize.ShloMosaic.Init

noncomputable section

namespace Cert.Proof

open Idealize.ShloMosaic Idealize.SL.Sem

/-- The aggregated node features are one term in the two programs: the same gather along the sources (negative
    indices wrapped by the node count) scattered and added onto the destinations, from a zero array. -/
theorem aggregated_eq (x0 : (⟨Cert.KernelIdeal.S10000x128, .f32⟩ : BufTy).Contents (Elt Ideal))
    (x1 x2 : (⟨Cert.KernelIdeal.S640000, .i32⟩ : BufTy).Contents (Elt Ideal)) :
    Cert.ReferenceIdeal.Read.val_main_v9 (F := Ideal) x0 x1 x2 = Cert.KernelIdeal.Hand.aggregated x0 x1 x2 := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, the kernel's result array and the reference's are both the
    dense stage of the same aggregated features, weights and bias. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.reference_eq, aggregated_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
